-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x256 : Shape := ⟨2, ![2000, 256]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 83
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x64, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x64, .f32⟩
  | .hbm, ⟨74, _⟩ => ⟨S850000x1, .f32⟩
  | .hbm, ⟨75, _⟩ => ⟨S850000x64, .f32⟩
  | .hbm, ⟨76, _⟩ => ⟨S850000x64, .f32⟩
  | .hbm, ⟨77, _⟩ => ⟨S_, .f32⟩
  | .hbm, ⟨78, _⟩ => ⟨S50000x64, .f32⟩
  | .hbm, ⟨79, _⟩ => ⟨S850000x1, .i32⟩
  | .hbm, ⟨80, _⟩ => ⟨S50000x64, .f32⟩
  | .hbm, ⟨81, _⟩ => ⟨S1x64, .f32⟩
  | .hbm, ⟨82, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x128 : Shape := ⟨2, ![50000, 128]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x128, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x64, .f32⟩
  | .hbm, ⟨68, _⟩ => ⟨S_, .f32⟩
  | .hbm, ⟨69, _⟩ => ⟨S850000, .f32⟩
  | .hbm, ⟨70, _⟩ => ⟨S_, .f32⟩
  | .hbm, ⟨71, _⟩ => ⟨S50000, .f32⟩
  | .hbm, ⟨72, _⟩ => ⟨S850000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .i1⟩
  | .hbm, ⟨77, _⟩ => ⟨S50000, .f32⟩
  | .hbm, ⟨78, _⟩ => ⟨S_, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000, .f32⟩
  | .hbm, ⟨91, _⟩ => ⟨S_, .i32⟩
  | .hbm, ⟨92, _⟩ => ⟨S850000, .i32⟩
  | .hbm, ⟨93, _⟩ => ⟨S850000, .i1⟩
  | .hbm, ⟨94, _⟩ => ⟨S_, .i32⟩
  | .hbm, ⟨95, _⟩ => ⟨S850000, .i32⟩
  | .hbm, ⟨96, _⟩ => ⟨S850000, .i32⟩
  | .hbm, ⟨97, _⟩ => ⟨S850000, .i32⟩
  | .hbm, ⟨98, _⟩ => ⟨S850000x1, .i32⟩
  | .hbm, ⟨99, _⟩ => ⟨S850000, .f32⟩
  | .hbm, ⟨100, _⟩ => ⟨S850000, .f32⟩
  | .hbm, ⟨101, _⟩ => ⟨S_, .i32⟩
  | .hbm, ⟨102, _⟩ => ⟨S850000, .i32⟩
  | .hbm, ⟨103, _⟩ => ⟨S850000, .i1⟩
  | .hbm, ⟨104, _⟩ => ⟨S_, .i32⟩
  | .hbm, ⟨105, _⟩ => ⟨S850000, .i32⟩
  | .hbm, ⟨106, _⟩ => ⟨S850000, .i32⟩
  | .hbm, ⟨107, _⟩ => ⟨S850000, .i32⟩
  | .hbm, ⟨108, _⟩ => ⟨S850000x1, .i32⟩
  | .hbm, ⟨109, _⟩ => ⟨S850000x64, .f32⟩
  | .hbm, ⟨110, _⟩ => ⟨S850000x1, .f32⟩
  | .hbm, ⟨111, _⟩ => ⟨S850000x64, .f32⟩
  | .hbm, ⟨112, _⟩ => ⟨S850000x64, .f32⟩
  | .hbm, ⟨113, _⟩ => ⟨S_, .f32⟩
  | .hbm, ⟨114, _⟩ => ⟨S50000x64, .f32⟩
  | .hbm, ⟨115, _⟩ => ⟨S850000x1, .i32⟩
  | .hbm, ⟨116, _⟩ => ⟨S50000x64, .f32⟩
  | .hbm, ⟨117, _⟩ => ⟨S1x64, .f32⟩
  | .hbm, ⟨118, _⟩ => ⟨S50000x64, .f32⟩
  | .hbm, ⟨119, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_call1_v0 : Ref sig .tc := ⟨.hbm, 79, rfl⟩
abbrev main_call1_v1 : Ref sig .tc := ⟨.hbm, 80, rfl⟩
abbrev main_v56 : Ref sig .tc := ⟨.hbm, 81, rfl⟩
abbrev main_c_13 : Ref sig .tc := ⟨.hbm, 82, rfl⟩
abbrev main_v57 : Ref sig .tc := ⟨.hbm, 83, rfl⟩
abbrev main_v58 : Ref sig .tc := ⟨.hbm, 84, rfl⟩
abbrev main_c_14 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_15 : Ref sig .tc := ⟨.hbm, 91, rfl⟩
abbrev main_v64 : Ref sig .tc := ⟨.hbm, 92, rfl⟩
abbrev main_v65 : Ref sig .tc := ⟨.hbm, 93, rfl⟩
abbrev main_c_16 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_17 : Ref sig .tc := ⟨.hbm, 101, rfl⟩
abbrev main_v72 : Ref sig .tc := ⟨.hbm, 102, rfl⟩
abbrev main_v73 : Ref sig .tc := ⟨.hbm, 103, rfl⟩
abbrev main_c_18 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_19 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x128_S50000x128_1_0_0_1_n_n_wf : DotDims.WF S50000x256 S256x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run, with its result array named.

  @main is eight segments: three stretches of host operations, the first pallas_call, a stretch, the second call, a stretch,
  the third call. Run from the launch memory, every weakly fair execution passes the boundaries between them in order and
  ends with every buffer that outlives the calls at the contents `W8 m ρ c` of the last boundary: a stretch changes the
  buffers it writes as its operations say, a call changes its output array to what its write-backs leave. So the result
  array ends at `W8 m ρ c` of its buffer, whatever that is (Proof/KernelValue says what), and the six arguments, which
  no segment writes, end as launched.
-/
import proofs.«106641_j369367188152_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents of its buffer and the arguments as launched. -/
theorem run : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«106641_j369367188152_1_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«106641_j369367188152_1_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.LibBlockFormats.lean ====
/-
  Blocks of rows of a dense layer at the extended reals, for operands held in any float format.

  At the extended reals a float of every format is an extended real and a change of format is the identity. So the
  relation "xb is the block of rows of X that starts at row off" passes through a narrowing cast unchanged, and
  a block of rows times a matrix, accumulated into the zero matrix by a matrix unit, is that block of rows of
  the host's product — whichever formats the two factors are held in (one may be a cast f32 value, the other a
  value loaded as bf16). A block that starts at row 0 and has every row is the matrix itself, and a block read at one
  entry is the matrix read `off` rows further down. No finiteness is asked of any entry.
-/
import proofs.«106641_j369367188152_1_alg».proof.Proof.LibPlainRecord

noncomputable section

open scoped BigOperators

namespace Cert.Lib.DenseLayer

open Idealize.ShloMosaic Idealize.ShloMosaic.ValueIdx Cert.Lib.PlainDot

/-- A narrowing change of float format leaves a block of rows what it is. -/
theorem RowBlk.narrow {Mb M K : Nat} {off : Nat} {φ ψ : FTy} {a : FVec Ideal ⟨2, ![Mb, K]⟩ φ} {A : (⟨2, ![M, K]⟩ : Shape).Idx → EReal}
    (ha : RowBlk off a A) (hψ : ψ.bits < φ.bits) : RowBlk off (truncf ψ a hψ) A := ha

/-- A block of rows times a matrix, accumulated into the zero matrix, is the block of rows of the product,
    whatever float formats the two factors are held in. -/
theorem RowBlk.matmulZero {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh) {φ₁ φ₂ : FTy}
    {xb : FVec Ideal ⟨2, ![Mb, K]⟩ φ₁} {X : FVec Ideal ⟨2, ![M, K]⟩ .f32} (h : RowBlk off xb X) (w : FVec Ideal ⟨2, ![K, N]⟩ φ₂) :
    RowBlk off (Idealize.ShloMosaic.matmul db none xb w (constant ⟨2, ![Mb, N]⟩ .f32 0x00000000#32)) (Host.dotGeneral dh none X w) := fun r hr c =>
  ((Ideal.matmul_constant_zero_apply db none xb w (ix2 r c)).trans
    (contraction_sum db hb.rank hb.size hb.l0 hb.l1 hb.r0 hb.r1 xb w r c)).trans
    ((Finset.sum_congr rfl fun k _ => congrArg (· * w (ix2 k c)) (h r hr k)).trans
      (hh.dot_apply X w ⟨off + r.val, hr⟩ c).symm)

/-- A block that starts at row 0 and has all the rows is the matrix. -/
theorem RowBlk.eq_whole {M K : Nat} {a A : (⟨2, ![M, K]⟩ : Shape).Idx → EReal} (h : RowBlk 0 a A) : a = A := funext fun j => by
  rw [eq_ix2 j]
  exact (h (j 0) (by rw [Nat.zero_add]; exact (j 0).isLt) (j 1)).trans
    (congrArg (fun r => A (ix2 r (j 1))) (Fin.ext (Nat.zero_add _)))

/-- A block of rows read at one entry: position j inside the block and position i in the whole matrix, same column,
    row `off` further down, hold the same number. -/
theorem RowBlk.at {Mb M K : Nat} {off : Nat} {a : (⟨2, ![Mb, K]⟩ : Shape).Idx → EReal} {A : (⟨2, ![M, K]⟩ : Shape).Idx → EReal}
    (h : RowBlk off a A) (j : (⟨2, ![Mb, K]⟩ : Shape).Idx) (i : (⟨2, ![M, K]⟩ : Shape).Idx)
    (hi0 : (i 0).val = off + (j 0).val) (hi1 : (i 1).val = (j 1).val) : a j = A i := by
  rw [eq_ix2 j, eq_ix2 i]
  have hlt : off + (j 0).val < M := hi0 ▸ (i 0).isLt
  exact (h (j 0) hlt (j 1)).trans (congrArg₂ (fun r k => A (ix2 r k)) (Fin.ext hi0.symm) (Fin.ext hi1.symm))

end Cert.Lib.DenseLayer

end
-- ==== Proof.FirstProduct.lean ====
/-
  The first pallas_call: the product x · W1, one block of 2000 rows at a time.

  The call's grid has 25 points. At point t the body loads rows 2000·t … 2000·t + 1999 of x (all 256 columns) and the
  whole of W1, narrows both to bf16, multiplies them on the matrix unit into a zero accumulator and stores the 2000 × 128
  result, which is written back to rows 2000·t … of the output array. At the extended reals a change of float format is the
  identity and the zero accumulator adds nothing, so what point t writes is the same 2000 rows of the host's
  dot_general of the whole arrays; the 25 blocks tile the 50000 rows, so the output array ends as that product.
  Everything is stated at an arbitrary contents `V` of the buffers when the call is entered.
-/
import proofs.«106641_j369367188152_1_alg».proof.Proof.Gen.KernelIdeal.Frame
import proofs.«106641_j369367188152_1_alg».proof.Proof.LibBlockFormats
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx
open Cert.Lib.DenseLayer

namespace Cert.KernelIdeal.FirstProduct

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The body's dimension numbers are the plain ones: rows of the left factor against columns of the right. -/
theorem plain_block : Plain dot_S2000x256_S256x128_S2000x128_1_0_0_1_n_n :=
  Plain.of_fields _ rfl rfl rfl rfl rfl rfl

/-- The three index maps over the grid: x and the output move one block of rows per point, W1 stays. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of x at point t is its rows from 2000·t on. -/
theorem rows_x (c : Dev nD) (t : Fin cfg0.N) :
    RowBlk (2000 * t.val) (iblk0 V c 0 t : Vec Ideal S2000x256 .f32) (V c main_arg0 : S50000x256.Idx → EReal) := by
  intro r hr k
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 2000 + 1 * r.val = 2000 * t.val + r.val; rw [e0]; omega
  | ⟨1, _⟩ => show win0_0.index t (1 : Fin 2) * 256 + 1 * k.val = k.val; rw [e1]; omega

/-- The block of W1 at every point is W1. -/
theorem whole_w (c : Dev nD) (t : Fin cfg0.N) :
    (iblk0 V c 1 t : Vec Ideal S256x128 .f32) = (V c main_arg2 : S256x128.Idx → EReal) := by
  obtain ⟨-, -, e2, e3, -⟩ := block_indices t
  funext y
  unfold iblk0
  rw [View.read_apply]
  show V c main_arg2 _ = V c main_arg2 y
  congr 1
  funext a
  apply Fin.ext
  match a with
  | ⟨0, _⟩ => show win0_1.index t (0 : Fin 2) * 256 + 1 * (y 0).val = (y 0).val; rw [e2]; omega
  | ⟨1, _⟩ => show win0_1.index t (1 : Fin 2) * 128 + 1 * (y 1).val = (y 1).val; rw [e3]; omega

/-- What the body stores is its one product. -/
theorem stored (x0 : Vec Ideal S2000x256 .f32) (x1 : Vec Ideal S256x128 .f32) : out0_2 (F := Ideal) x0 x1 = k0_pay1 x0 x1 := by
  unfold out0_2
  rw [View.canon_unit_zero zero_offsets]
  simp only [View.ld_unit_zero (S := S2000x256) zero_offsets, View.ld_unit_zero (S := S256x128) zero_offsets]

/-- A block of rows of x through the body is that block of rows of the whole product. -/
theorem rows_stored {dh : DotDims ⟨2, ![50000, 256]⟩ ⟨2, ![256, 128]⟩ ⟨2, ![50000, 128]⟩} (hh : Plain dh) (off : Nat)
    (xb : FVec Ideal ⟨2, ![2000, 256]⟩ .f32) (w W : FVec Ideal ⟨2, ![256, 128]⟩ .f32) (X : FVec Ideal ⟨2, ![50000, 256]⟩ .f32)
    (h : RowBlk off xb X) (hw : w = W) :
    RowBlk off (out0_2 (F := Ideal) xb w) (Host.dotGeneral (F := Ideal) dh none X W) := by
  subst hw
  rw [stored]
  unfold k0_pay1
  exact h.matmul plain_block hh w _ _

/-- What point t writes back is its block of the product of the arrays as the call finds them. -/
theorem written_back {dh : DotDims ⟨2, ![50000, 256]⟩ ⟨2, ![256, 128]⟩ ⟨2, ![50000, 128]⟩} (hh : Plain dh) (c : Dev nD) (t : Fin cfg0.N) :
    (dat0 V c).flushed 2 t = ((cfg0.win 2).blk t).view.read (Elt Ideal)
      (Host.dotGeneral (F := Ideal) (φ₁ := .f32) (φ₂ := .f32) dh none (V c main_arg0) (V c main_arg2)) := by
  show (cfg0.win 2).cut (grid0.coords t) ((dat0 V c).after 2 t) = _
  rw [after0_2]
  obtain ⟨-, -, -, -, e4, e5⟩ := block_indices t
  funext j
  rw [View.read_apply]
  refine (rows_stored hh (2000 * t.val) _ _ _ _ (rows_x V c t) (whole_w V c t)).at j _ ?_ ?_
  · show win0_2.index t (0 : Fin 2) * 2000 + 1 * (j 0).val = 2000 * t.val + (j 0).val; rw [e4]; omega
  · show win0_2.index t (1 : Fin 2) * 128 + 1 * (j 1).val = (j 1).val; rw [e5]; omega

/-- Every entry of the output array is in the block of the point its row belongs to. -/
theorem tiled (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, e4, e5⟩ := block_indices ⟨(i 0).val / 2000, ht⟩
  refine ⟨⟨(i 0).val / 2000, ht⟩, flush0_2 _, ?_⟩
  show i ∈ ((View.whole main_v30).slice (win0_2.rect ⟨(i 0).val / 2000, ht⟩)).set
  rw [View.set_slice_whole, Rect.mem_set_unit]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e5]; omega

/-- THE OUTPUT ARRAY after the call: the host's product of x and W1 as the call found them. -/
theorem value {dh : DotDims ⟨2, ![50000, 256]⟩ ⟨2, ![256, 128]⟩ ⟨2, ![50000, 128]⟩} (hh : Plain dh) (c : Dev nD) :
    (dat0 V c).arrAt 2 cfg0.N
      = Host.dotGeneral (F := Ideal) (φ₁ := .f32) (φ₂ := .f32) dh none (V c main_arg0) (V c main_arg2) :=
  (dat0 V c).arrAt_eq_of_cover 2 _ (fun t _ => written_back V hh c t) tiled

end Cert.KernelIdeal.FirstProduct

end
-- ==== Proof.HiddenLayer.lean ====
/-
  The second pallas_call: tanh (A + b1) · W2, one block of 2000 rows at a time.

  A is the first layer's aggregated matrix (50000 × 128), b1 its bias held as one row (1 × 128), W2 the second layer's
  weights (128 × 64). At point t the body loads rows 2000·t … of A, the bias row and W2, adds the bias row to every row,
  applies tanh entry by entry, narrows to bf16 and multiplies by the narrowed W2 into a zero accumulator. Every one of
  these steps acts on each row by itself, so the 2000 rows it stores are rows 2000·t … of the same steps done on the whole
  matrix: the host's tanh of A plus the bias row broadcast along the rows, times W2. The 25 blocks tile the 50000 rows.
-/
import proofs.«106641_j369367188152_1_alg».proof.Proof.Gen.KernelIdeal.Frame
import proofs.«106641_j369367188152_1_alg».proof.Proof.LibBlockFormats
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx
open Cert.Lib.DenseLayer

namespace Cert.KernelIdeal.HiddenLayer

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The body's dimension numbers are the plain ones. -/
theorem plain_block : Plain dot_S2000x128_S128x64_S2000x64_1_0_0_1_n_n :=
  Plain.of_fields _ rfl rfl rfl rfl rfl rfl

/-- The four index maps over the grid: A and the output move one block of rows per point, the bias row and W2 stay. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block of A at point t is its rows from 2000·t on. -/
theorem rows_a (c : Dev nD) (t : Fin cfg1.N) :
    RowBlk (2000 * t.val) (iblk1 V c 0 t : Vec Ideal S2000x128 .f32) (V c main_v43 : S50000x128.Idx → EReal) := by
  intro r hr k
  have e := block_indices t
  unfold iblk1
  rw [View.read_apply]
  show V c main_v43 _ = V c main_v43 _
  congr 1
  funext a
  apply Fin.ext
  match a with
  | ⟨0, _⟩ => show win1_0.index t (0 : Fin 2) * 2000 + 1 * r.val = 2000 * t.val + r.val; omega
  | ⟨1, _⟩ => show win1_0.index t (1 : Fin 2) * 128 + 1 * k.val = k.val; omega

/-- The block of the bias row at every point is the bias row. -/
theorem whole_b (c : Dev nD) (t : Fin cfg1.N) :
    (iblk1 V c 1 t : Vec Ideal S1x128 .f32) = (V c main_v44 : S1x128.Idx → EReal) := by
  have e := block_indices t
  funext y
  unfold iblk1
  rw [View.read_apply]
  show V c main_v44 _ = V c main_v44 y
  congr 1
  funext a
  apply Fin.ext
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- The block of W2 at every point is W2. -/
theorem whole_w (c : Dev nD) (t : Fin cfg1.N) :
    (iblk1 V c 2 t : Vec Ideal S128x64 .f32) = (V c main_arg4 : S128x64.Idx → EReal) := by
  have e := block_indices t
  funext y
  unfold iblk1
  rw [View.read_apply]
  show V c main_arg4 _ = V c main_arg4 y
  congr 1
  funext a
  apply Fin.ext
  match a with
  | ⟨0, _⟩ => show win1_2.index t (0 : Fin 2) * 128 + 1 * (y 0).val = (y 0).val; omega
  | ⟨1, _⟩ => show win1_2.index t (1 : Fin 2) * 64 + 1 * (y 1).val = (y 1).val; omega

/-- What the body stores is its one product. -/
theorem stored (x0 : Vec Ideal S2000x128 .f32) (x1 : Vec Ideal S1x128 .f32) (x2 : Vec Ideal S128x64 .f32) :
    out1_3 (F := Ideal) x0 x1 x2 = k1_pay1 x0 x1 x2 := by
  unfold out1_3
  rw [View.canon_unit_zero zero_offsets]
  simp only [View.ld_unit_zero (S := S2000x128) zero_offsets, View.ld_unit_zero (S := S1x128) zero_offsets,
    View.ld_unit_zero (S := S128x64) zero_offsets]

/-- A block of rows of A through the body is that block of rows of tanh (A + bias) · W2 on the whole matrix. -/
theorem rows_stored {dh : DotDims ⟨2, ![50000, 128]⟩ ⟨2, ![128, 64]⟩ ⟨2, ![50000, 64]⟩} (hh : Plain dh)
    (hB : (⟨2, ![1, 128]⟩ : Shape).BroadcastsInDim ⟨2, ![50000, 128]⟩ ![0, 1]) (off : Nat)
    (ab : FVec Ideal ⟨2, ![2000, 128]⟩ .f32) (b B : FVec Ideal ⟨2, ![1, 128]⟩ .f32) (w W : FVec Ideal ⟨2, ![128, 64]⟩ .f32)
    (A : FVec Ideal ⟨2, ![50000, 128]⟩ .f32) (h : RowBlk off ab A) (hb : b = B) (hw : w = W) :
    RowBlk off (out1_3 (F := Ideal) ab b w)
      (Host.dotGeneral (F := Ideal) (φ₁ := .f32) (φ₂ := .f32) dh none
        (Host.tanh (addf A (broadcastInDim ⟨2, ![50000, 128]⟩ ![0, 1] hB B))) W) := by
  subst hb
  subst hw
  rw [stored]
  unfold k1_pay1
  simp only [shapeCast_self]
  have hsum : RowBlk off (addf ab (broadcastTo S2000x128 b broadcasts_S1x128_S2000x128))
      (addf A (broadcastInDim ⟨2, ![50000, 128]⟩ ![0, 1] hB b)) := h.add (RowBlk.bias b _ hB)
  have htanh : RowBlk off (tanh (addf ab (broadcastTo S2000x128 b broadcasts_S1x128_S2000x128)))
      (Host.tanh (addf A (broadcastInDim ⟨2, ![50000, 128]⟩ ![0, 1] hB b))) := hsum.map Ideal.tanh
  exact htanh.matmul plain_block hh w _ _

/-- What point t writes back is its block of tanh (A + bias) · W2 of the arrays as the call finds them. -/
theorem written_back {dh : DotDims ⟨2, ![50000, 128]⟩ ⟨2, ![128, 64]⟩ ⟨2, ![50000, 64]⟩} (hh : Plain dh)
    (hB : (⟨2, ![1, 128]⟩ : Shape).BroadcastsInDim ⟨2, ![50000, 128]⟩ ![0, 1]) (c : Dev nD) (t : Fin cfg1.N) :
    (dat1 V c).flushed 3 t = ((cfg1.win 3).blk t).view.read (Elt Ideal)
      (Host.dotGeneral (F := Ideal) (φ₁ := .f32) (φ₂ := .f32) dh none
        (Host.tanh (addf (V c main_v43) (broadcastInDim ⟨2, ![50000, 128]⟩ ![0, 1] hB (V c main_v44)))) (V c main_arg4)) := by
  show (cfg1.win 3).cut (grid1.coords t) ((dat1 V c).after 3 t) = _
  rw [after1_3]
  have e := block_indices t
  funext j
  rw [View.read_apply]
  refine (rows_stored hh hB (2000 * t.val) _ _ _ _ _ _ (rows_a V c t) (whole_b V c t) (whole_w V c t)).at j _ ?_ ?_
  · show win1_3.index t (0 : Fin 2) * 2000 + 1 * (j 0).val = 2000 * t.val + (j 0).val; omega
  · show win1_3.index t (1 : Fin 2) * 64 + 1 * (j 1).val = (j 1).val; omega

/-- Every entry of the output array is in the block of the point its row belongs to. -/
theorem tiled (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 25 := N_1
  have ht : (i 0).val / 2000 < cfg1.N := by rw [hN]; omega
  have e := block_indices ⟨(i 0).val / 2000, ht⟩
  refine ⟨⟨(i 0).val / 2000, ht⟩, flush1_3 _, ?_⟩
  show i ∈ ((View.whole main_v45).slice (win1_3.rect ⟨(i 0).val / 2000, ht⟩)).set
  rw [View.set_slice_whole, Rect.mem_set_unit]
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e.2.2.2.2.2.2.1]; show (i 0).val / 2000 * 2000 ≤ (i 0).val ∧ (i 0).val < (i 0).val / 2000 * 2000 + 2000; omega
  | ⟨1, _⟩ =>
    show win1_3.index ⟨(i 0).val / 2000, ht⟩ (1 : Fin 2) * 64 ≤ (i 1).val ∧ (i 1).val < win1_3.index ⟨(i 0).val / 2000, ht⟩ (1 : Fin 2) * 64 + 64
    rw [e.2.2.2.2.2.2.2]; omega

/-- THE OUTPUT ARRAY after the call: tanh (A + bias) · W2 of the arrays as the call found them. -/
theorem value {dh : DotDims ⟨2, ![50000, 128]⟩ ⟨2, ![128, 64]⟩ ⟨2, ![50000, 64]⟩} (hh : Plain dh)
    (hB : (⟨2, ![1, 128]⟩ : Shape).BroadcastsInDim ⟨2, ![50000, 128]⟩ ![0, 1]) (c : Dev nD) :
    (dat1 V c).arrAt 3 cfg1.N
      = Host.dotGeneral (F := Ideal) (φ₁ := .f32) (φ₂ := .f32) dh none
          (Host.tanh (addf (V c main_v43) (broadcastInDim ⟨2, ![50000, 128]⟩ ![0, 1] hB (V c main_v44)))) (V c main_arg4) :=
  (dat1 V c).arrAt_eq_of_cover 3 _ (fun t _ => written_back V hh hB c t) tiled

end Cert.KernelIdeal.HiddenLayer

end
-- ==== Proof.OutputBias.lean ====
/-
  The third pallas_call: A + b2, one block of 2000 rows at a time.

  A is the second layer's aggregated matrix (50000 × 64) and b2 its bias held as one row (1 × 64). At point t the body
  loads rows 2000·t … of A and the bias row, adds the bias row to every row and stores the 2000 rows, which are rows
  2000·t … of A plus the bias row broadcast along all 50000 rows. The 25 blocks tile the 50000 rows.
-/
import proofs.«106641_j369367188152_1_alg».proof.Proof.Gen.KernelIdeal.Frame
import proofs.«106641_j369367188152_1_alg».proof.Proof.LibBlockFormats
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx
open Cert.Lib.DenseLayer

namespace Cert.KernelIdeal.OutputBias

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The three index maps over the grid: A and the output move one block of rows per point, the bias row stays. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The block of A at point t is its rows from 2000·t on. -/
theorem rows_a (c : Dev nD) (t : Fin cfg2.N) :
    RowBlk (2000 * t.val) (iblk2 V c 0 t : Vec Ideal S2000x64 .f32) (V c main_v58 : S50000x64.Idx → EReal) := by
  intro r hr k
  have e := block_indices t
  unfold iblk2
  rw [View.read_apply]
  show V c main_v58 _ = V c main_v58 _
  congr 1
  funext a
  apply Fin.ext
  match a with
  | ⟨0, _⟩ => show win2_0.index t (0 : Fin 2) * 2000 + 1 * r.val = 2000 * t.val + r.val; omega
  | ⟨1, _⟩ => show win2_0.index t (1 : Fin 2) * 64 + 1 * k.val = k.val; omega

/-- The block of the bias row at every point is the bias row. -/
theorem whole_b (c : Dev nD) (t : Fin cfg2.N) :
    (iblk2 V c 1 t : Vec Ideal S1x64 .f32) = (V c main_v59 : S1x64.Idx → EReal) := by
  have e := block_indices t
  funext y
  unfold iblk2
  rw [View.read_apply]
  show V c main_v59 _ = V c main_v59 y
  congr 1
  funext a
  apply Fin.ext
  match a with
  | ⟨0, _⟩ => show win2_1.index t (0 : Fin 2) * 1 + 1 * (y 0).val = (y 0).val; omega
  | ⟨1, _⟩ => show win2_1.index t (1 : Fin 2) * 64 + 1 * (y 1).val = (y 1).val; omega

/-- What the body stores is its one sum. -/
theorem stored (x0 : Vec Ideal S2000x64 .f32) (x1 : Vec Ideal S1x64 .f32) : out2_2 (F := Ideal) x0 x1 = k2_pay1 x0 x1 := by
  unfold out2_2
  rw [View.canon_unit_zero zero_offsets]
  simp only [View.ld_unit_zero (S := S2000x64) zero_offsets, View.ld_unit_zero (S := S1x64) zero_offsets]

/-- A block of rows of A through the body is that block of rows of A plus the bias row on the whole matrix. -/
theorem rows_stored (hB : (⟨2, ![1, 64]⟩ : Shape).BroadcastsInDim ⟨2, ![50000, 64]⟩ ![0, 1]) (off : Nat)
    (ab : FVec Ideal ⟨2, ![2000, 64]⟩ .f32) (b B : FVec Ideal ⟨2, ![1, 64]⟩ .f32) (A : FVec Ideal ⟨2, ![50000, 64]⟩ .f32)
    (h : RowBlk off ab A) (hb : b = B) :
    RowBlk off (out2_2 (F := Ideal) ab b) (addf A (broadcastInDim ⟨2, ![50000, 64]⟩ ![0, 1] hB B)) := by
  subst hb
  rw [stored]
  unfold k2_pay1
  simp only [shapeCast_self]
  exact h.add (RowBlk.bias b _ hB)

/-- What point t writes back is its block of A plus the bias row, of the arrays as the call finds them. -/
theorem written_back (hB : (⟨2, ![1, 64]⟩ : Shape).BroadcastsInDim ⟨2, ![50000, 64]⟩ ![0, 1]) (c : Dev nD) (t : Fin cfg2.N) :
    (dat2 V c).flushed 2 t = ((cfg2.win 2).blk t).view.read (Elt Ideal)
      (addf (F := Ideal) (φ := .f32) (V c main_v58) (broadcastInDim ⟨2, ![50000, 64]⟩ ![0, 1] hB (V c main_v59))) := by
  show (cfg2.win 2).cut (grid2.coords t) ((dat2 V c).after 2 t) = _
  rw [after2_2]
  have e := block_indices t
  funext j
  rw [View.read_apply]
  refine (rows_stored hB (2000 * t.val) _ _ _ _ (rows_a V c t) (whole_b V c t)).at j _ ?_ ?_
  · show win2_2.index t (0 : Fin 2) * 2000 + 1 * (j 0).val = 2000 * t.val + (j 0).val; omega
  · show win2_2.index t (1 : Fin 2) * 64 + 1 * (j 1).val = (j 1).val; omega

/-- Every entry of the output array is in the block of the point its row belongs to. -/
theorem tiled (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 25 := N_2
  have ht : (i 0).val / 2000 < cfg2.N := by rw [hN]; omega
  have e := block_indices ⟨(i 0).val / 2000, ht⟩
  refine ⟨⟨(i 0).val / 2000, ht⟩, flush2_2 _, ?_⟩
  show i ∈ ((View.whole main_v60).slice (win2_2.rect ⟨(i 0).val / 2000, ht⟩)).set
  rw [View.set_slice_whole, Rect.mem_set_unit]
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e.2.2.2.2.1]; show (i 0).val / 2000 * 2000 ≤ (i 0).val ∧ (i 0).val < (i 0).val / 2000 * 2000 + 2000; omega
  | ⟨1, _⟩ =>
    show win2_2.index ⟨(i 0).val / 2000, ht⟩ (1 : Fin 2) * 64 ≤ (i 1).val ∧ (i 1).val < win2_2.index ⟨(i 0).val / 2000, ht⟩ (1 : Fin 2) * 64 + 64
    rw [e.2.2.2.2.2]; omega

/-- THE OUTPUT ARRAY after the call: A plus the bias row, of the arrays as the call found them. -/
theorem value (hB : (⟨2, ![1, 64]⟩ : Shape).BroadcastsInDim ⟨2, ![50000, 64]⟩ ![0, 1]) (c : Dev nD) :
    (dat2 V c).arrAt 2 cfg2.N
      = addf (F := Ideal) (φ := .f32) (V c main_v58) (broadcastInDim ⟨2, ![50000, 64]⟩ ![0, 1] hB (V c main_v59)) :=
  (dat2 V c).arrAt_eq_of_cover 2 _ (fun t _ => written_back V hB c t) tiled

end Cert.KernelIdeal.OutputBias

end
-- ==== Proof.GraphConv.lean ====
/-
  The two-layer graph convolution as ONE function of the six argument arrays.

  The edge list `e` has two rows of 800000 node numbers; each row is continued by the 50000 node numbers 0, 1, …, so
  that every node also has an edge to itself: `sources e` and `targets e` (850000 entries each). A node number that
  reads negative as a signed word is moved up by 50000 before it is used to pick a row (`wrapped`). The degree of a
  node is the number of edges that end in it (a scatter-add of ones over the targets), its weight the reciprocal square
  root of the degree where the degree is positive and 0 elsewhere, and an edge's coefficient the product of its two end
  nodes' weights (`coefficients e`). One aggregation step takes a matrix Y with a row per node, picks for every edge the
  row of its source, scales it by the edge's coefficient and adds it into the row of its target (`aggregate128`,
  `aggregate64`: the same step at the two widths of this network). The network is

      aggregate64 (tanh (aggregate128 (x · W1) + b1) · W2) + b2

  with each bias added to every row. Every operation is the host's own, over the reference program's records, so the
  reference's result is this function by unfolding; nothing here is evaluated or opened.
-/
import proofs.«106641_j369367188152_1_alg».proof.Proof.Gen.ReferenceIdeal

noncomputable section

namespace Cert.GraphConv

open Cert.ReferenceIdeal Cert.ReferenceIdeal.Gen Idealize.ShloMosaic Idealize.ShloMosaic.TcCoe Idealize.SL.Sem

variable {F : FTy → Type} [FloatOps F]

/-- Row 0 of the edge list, then one self loop per node: the node each edge starts at. -/
def sources (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- Row 1 of the edge list, then one self loop per node: the node each edge ends at. -/
def targets (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node number that reads negative is moved up by the number of nodes. -/
def wrapped (i : (⟨S850000, .i32⟩ : BufTy).Contents (Elt F)) : (⟨S850000, .i32⟩ : BufTy).Contents (Elt F) :=
  select (cmpi .slt i (broadcastInDim S850000 ![] bcast_S_S850000 (constantI S_ 32 0#32))) (addi i (broadcastInDim S850000 ![] bcast_S_S850000 (constantI S_ 32 50000#32))) i

/-- The number of edges ending in each node. -/
def degree (dst : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))

/-- A node's weight: the reciprocal square root of its degree where that is positive, 0 elsewhere. -/
def weight (dst : (⟨S850000, .i32⟩ : BufTy).Contents (Elt F)) : (⟨S50000, .f32⟩ : BufTy).Contents (Elt F) :=
  select (cmpf (F := F) .ogt (degree dst) (broadcastInDim S50000 ![] bcast_S_S50000 (constant S_ .f32 0x00000000#32))) (Host.rsqrt (degree dst)) (broadcastInDim S50000 ![] bcast_S_S50000 (id (constant S_ .f32 0x00000000#32)))

/-- An edge's coefficient: the product of the weights of the nodes it joins. -/
def coefficients (e : (⟨S2x800000, .i32⟩ : BufTy).Contents (Elt F)) : (⟨S850000, .f32⟩ : BufTy).Contents (Elt F) :=
  mulf (Host.gather gather_S50000_S850000x1_S850000_n_0_n_n_0_1_1 (weight (targets e)) (broadcastInDim S850000x1 ![0] bcast_S850000_S850000x1_0 (wrapped (sources e)))) (Host.gather gather_S50000_S850000x1_S850000_n_0_n_n_0_1_1 (weight (targets e)) (broadcastInDim S850000x1 ![0] bcast_S850000_S850000x1_0 (wrapped (targets e))))

/-- One aggregation step on a matrix of 128 columns, from the edges' end nodes and coefficients. -/
def aggregate128 (src dst : (⟨S850000, .i32⟩ : BufTy).Contents (Elt F)) (coef : (⟨S850000, .f32⟩ : BufTy).Contents (Elt F)) (y : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 dst) (mulf (Host.gather gather_S50000x128_S850000x1_S850000x128_1_0_n_n_0_1_1128 y (broadcastInDim S850000x1 ![0] bcast_S850000_S850000x1_0 (wrapped src))) (broadcastInDim S850000x128 ![0, 1] bcast_S850000x1_S850000x128_0_1 (broadcastInDim S850000x1 ![0] bcast_S850000_S850000x1_0 coef)))

/-- One aggregation step on a matrix of 64 columns. -/
def aggregate64 (src dst : (⟨S850000, .i32⟩ : BufTy).Contents (Elt F)) (coef : (⟨S850000, .f32⟩ : BufTy).Contents (Elt F)) (y : (⟨S50000x64, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 dst) (mulf (Host.gather gather_S50000x64_S850000x1_S850000x64_1_0_n_n_0_1_164 y (broadcastInDim S850000x1 ![0] bcast_S850000_S850000x1_0 (wrapped src))) (broadcastInDim S850000x64 ![0, 1] bcast_S850000x1_S850000x64_0_1 (broadcastInDim S850000x1 ![0] bcast_S850000_S850000x1_0 coef)))

/-- The hidden layer after its aggregation: the bias b1 added to every row, then tanh, then the product with W2. -/
def hiddenLayer (a : (⟨S50000x128, .f32⟩ : BufTy).Contents (Elt F)) (b1 : (⟨S128, .f32⟩ : BufTy).Contents (Elt F)) (w2 : (⟨S128x64, .f32⟩ : BufTy).Contents (Elt F)) : (⟨S50000x64, .f32⟩ : BufTy).Contents (Elt F) :=
  Host.dotGeneral dot_S50000x128_S128x64_S50000x64_1_0_0_1_n_n none (Host.tanh (addf a (broadcastInDim S50000x128 ![0, 1] bcast_S1x128_S50000x128_0_1 (broadcastInDim S1x128 ![1] bcast_S128_S1x128_1 b1)))) w2

/-- THE NETWORK: both layers, from the six argument arrays. -/
def network (x : (⟨S50000x256, .f32⟩ : BufTy).Contents (Elt F)) (e : (⟨S2x800000, .i32⟩ : BufTy).Contents (Elt F)) (w1 : (⟨S256x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) : (⟨S50000x64, .f32⟩ : BufTy).Contents (Elt F) :=
  addf (aggregate64 (sources e) (targets e) (coefficients e)
      (hiddenLayer (aggregate128 (sources e) (targets e) (coefficients e) (Host.dotGeneral dot_S50000x256_S256x128_S50000x128_1_0_0_1_n_n none x w1)) b1 w2))
    (broadcastInDim S50000x64 ![0, 1] bcast_S1x64_S50000x64_0_1 (broadcastInDim S1x64 ![1] bcast_S64_S1x64_1 b2))

end Cert.GraphConv

end
-- ==== Proof.HostStretches.lean ====
/-
  The kernel's stretches of host operations, read as the network's pieces.

  Between its three pallas_calls the kernel's @main runs the host operations of the graph convolution: before the first
  call it builds the edges' end nodes (with the self loops) and their coefficients; after the first call one aggregation
  step on the call's output and the reshape of the bias b1 to a row; after the second call one aggregation step on that
  call's output and the reshape of b2. Each stretch is read here from ANY contents `Wv` of the buffers before it: the
  buffer it computes holds the named piece of `Cert.GraphConv` of the buffers it reads, and a buffer it does not write
  is as before. A vector reshaped to a one-row matrix is the same row as the vector broadcast along a new leading axis,
  which is how the reference spells it.
-/
import proofs.«106641_j369367188152_1_alg».proof.Proof.Gen.KernelIdeal.Launch
import proofs.«106641_j369367188152_1_alg».proof.Proof.GraphConv
import proofs.«106641_j369367188152_1_alg».proof.Proof.LibDenseLayer
import Idealize.ShloMosaic.Lib.StableHlo.Run

set_option maxRecDepth 16384

noncomputable section

namespace Cert.KernelIdeal.HostStretches

open Cert.KernelIdeal Cert.KernelIdeal.Gen Cert.GraphConv
open Idealize.ShloMosaic Idealize.ShloMosaic.TcCoe Idealize.SL.Sem Idealize.ShloMosaic.StableHlo

/-! ## Before the first call: the edges -/

/-- The edges' start nodes. -/
theorem pre_sources (Wv : Valuation τ sig (Elt Ideal)) :
    StableHlo.after (hostOps0_2 (F := Ideal)) (StableHlo.after (hostOps0_1 (F := Ideal)) (StableHlo.after (hostOps0 (F := Ideal)) Wv)) (Proc.devRef .tc main_v3) = sources (F := Ideal) (Wv (Proc.devRef .tc main_arg1)) := by
  dsimp only [hostOps0, hostOps0_1, hostOps0_2]
  after_results_simp
  unfold sources
  rfl

/-- The edges' end nodes. -/
theorem pre_targets (Wv : Valuation τ sig (Elt Ideal)) :
    StableHlo.after (hostOps0_2 (F := Ideal)) (StableHlo.after (hostOps0_1 (F := Ideal)) (StableHlo.after (hostOps0 (F := Ideal)) Wv)) (Proc.devRef .tc main_v6) = targets (F := Ideal) (Wv (Proc.devRef .tc main_arg1)) := by
  dsimp only [hostOps0, hostOps0_1, hostOps0_2]
  after_results_simp
  unfold targets
  rfl

/-- Where the degree is positive (after the first stretch). -/
theorem first_positive (Wv : Valuation τ sig (Elt Ideal)) :
    StableHlo.after (hostOps0 (F := Ideal)) Wv (Proc.devRef .tc main_v12) = cmpf (F := Ideal) .ogt (degree (F := Ideal) (targets (F := Ideal) (Wv (Proc.devRef .tc main_arg1)))) (broadcastInDim Cert.ReferenceIdeal.S50000 ![] Cert.ReferenceIdeal.Gen.bcast_S_S50000 (constant Cert.ReferenceIdeal.S_ .f32 0x00000000#32)) := by
  dsimp only [hostOps0]
  after_results_simp
  unfold degree targets
  rfl

/-- The reciprocal square root of the degree (after the first stretch). -/
theorem first_rsqrt (Wv : Valuation τ sig (Elt Ideal)) :
    StableHlo.after (hostOps0 (F := Ideal)) Wv (Proc.devRef .tc main_v13) = Host.rsqrt (F := Ideal) (φ := .f32) (degree (F := Ideal) (targets (F := Ideal) (Wv (Proc.devRef .tc main_arg1)))) := by
  dsimp only [hostOps0]
  after_results_simp
  unfold degree targets
  rfl

/-- The constant 0 the selection falls back on (after the first stretch). -/
theorem first_zero (Wv : Valuation τ sig (Elt Ideal)) :
    StableHlo.after (hostOps0 (F := Ideal)) Wv (Proc.devRef .tc main_cst_2) = constant (F := Ideal) Cert.ReferenceIdeal.S_ .f32 0x00000000#32 := by
  dsimp only [hostOps0]
  after_results_simp <;> rfl

/-- The edges' start nodes (after the first stretch). -/
theorem first_sources (Wv : Valuation τ sig (Elt Ideal)) :
    StableHlo.after (hostOps0 (F := Ideal)) Wv (Proc.devRef .tc main_v3) = sources (F := Ideal) (Wv (Proc.devRef .tc main_arg1)) := by
  dsimp only [hostOps0]
  after_results_simp
  unfold sources
  rfl

/-- The edges' end nodes (after the first stretch). -/
theorem first_targets (Wv : Valuation τ sig (Elt Ideal)) :
    StableHlo.after (hostOps0 (F := Ideal)) Wv (Proc.devRef .tc main_v6) = targets (F := Ideal) (Wv (Proc.devRef .tc main_arg1)) := by
  dsimp only [hostOps0]
  after_results_simp
  unfold targets
  rfl

/-- The selection of the nodes' weights (the second stretch), from what it reads. -/
theorem where_weight (Wv : Valuation τ sig (Elt Ideal)) :
    StableHlo.after (hostOps0_1 (F := Ideal)) Wv (Proc.devRef .tc main_v14)
      = select (Wv (Proc.devRef .tc main_v12)) (Wv (Proc.devRef .tc main_v13)) (broadcastInDim Cert.ReferenceIdeal.S50000 ![] Cert.ReferenceIdeal.Gen.bcast_S_S50000 (id (Wv (Proc.devRef .tc main_cst_2)))) := by
  dsimp only [hostOps0_1]
  after_results
  rfl

/-- The selection does not write the edges' start nodes. -/
theorem where_src (Wv : Valuation τ sig (Elt Ideal)) : StableHlo.after (hostOps0_1 (F := Ideal)) Wv (Proc.devRef .tc main_v3) = Wv (Proc.devRef .tc main_v3) := by
  dsimp only [hostOps0_1]
  after_results

/-- The selection does not write the edges' end nodes. -/
theorem where_dst (Wv : Valuation τ sig (Elt Ideal)) : StableHlo.after (hostOps0_1 (F := Ideal)) Wv (Proc.devRef .tc main_v6) = Wv (Proc.devRef .tc main_v6) := by
  dsimp only [hostOps0_1]
  after_results

/-- The product of the two end nodes' weights (the third stretch), from what it reads. -/
theorem last_coefficients (Wv : Valuation τ sig (Elt Ideal)) :
    StableHlo.after (hostOps0_2 (F := Ideal)) Wv (Proc.devRef .tc main_v29)
      = mulf (F := Ideal) (φ := .f32) (Host.gather Cert.ReferenceIdeal.gather_S50000_S850000x1_S850000_n_0_n_n_0_1_1 (Wv (Proc.devRef .tc main_v14)) (broadcastInDim Cert.ReferenceIdeal.S850000x1 ![0] Cert.ReferenceIdeal.Gen.bcast_S850000_S850000x1_0 (wrapped (F := Ideal) (Wv (Proc.devRef .tc main_v3)))))
          (Host.gather Cert.ReferenceIdeal.gather_S50000_S850000x1_S850000_n_0_n_n_0_1_1 (Wv (Proc.devRef .tc main_v14)) (broadcastInDim Cert.ReferenceIdeal.S850000x1 ![0] Cert.ReferenceIdeal.Gen.bcast_S850000_S850000x1_0 (wrapped (F := Ideal) (Wv (Proc.devRef .tc main_v6))))) := by
  dsimp only [hostOps0_2]
  after_results_simp
  unfold wrapped
  rfl

/-- The edges' coefficients. -/
theorem pre_coefficients (Wv : Valuation τ sig (Elt Ideal)) :
    StableHlo.after (hostOps0_2 (F := Ideal)) (StableHlo.after (hostOps0_1 (F := Ideal)) (StableHlo.after (hostOps0 (F := Ideal)) Wv)) (Proc.devRef .tc main_v29) = coefficients (F := Ideal) (Wv (Proc.devRef .tc main_arg1)) := by
  refine (last_coefficients (StableHlo.after (hostOps0_1 (F := Ideal)) (StableHlo.after (hostOps0 (F := Ideal)) Wv))).trans ?_
  rw [where_weight (StableHlo.after (hostOps0 (F := Ideal)) Wv), where_src (StableHlo.after (hostOps0 (F := Ideal)) Wv), where_dst (StableHlo.after (hostOps0 (F := Ideal)) Wv), first_positive Wv, first_rsqrt Wv, first_zero Wv,
    first_sources Wv, first_targets Wv]
  unfold coefficients weight
  rfl

/-- No operation before the first call writes argument 0. -/
theorem pre_arg0 (Wv : Valuation τ sig (Elt Ideal)) : StableHlo.after (hostOps0_2 (F := Ideal)) (StableHlo.after (hostOps0_1 (F := Ideal)) (StableHlo.after (hostOps0 (F := Ideal)) Wv)) (Proc.devRef .tc main_arg0) = Wv (Proc.devRef .tc main_arg0) := by
  dsimp only [hostOps0, hostOps0_1, hostOps0_2]
  after_results_simp <;> rfl

/-- No operation before the first call writes argument 2. -/
theorem pre_arg2 (Wv : Valuation τ sig (Elt Ideal)) : StableHlo.after (hostOps0_2 (F := Ideal)) (StableHlo.after (hostOps0_1 (F := Ideal)) (StableHlo.after (hostOps0 (F := Ideal)) Wv)) (Proc.devRef .tc main_arg2) = Wv (Proc.devRef .tc main_arg2) := by
  dsimp only [hostOps0, hostOps0_1, hostOps0_2]
  after_results_simp <;> rfl

/-- No operation before the first call writes argument 3. -/
theorem pre_arg3 (Wv : Valuation τ sig (Elt Ideal)) : StableHlo.after (hostOps0_2 (F := Ideal)) (StableHlo.after (hostOps0_1 (F := Ideal)) (StableHlo.after (hostOps0 (F := Ideal)) Wv)) (Proc.devRef .tc main_arg3) = Wv (Proc.devRef .tc main_arg3) := by
  dsimp only [hostOps0, hostOps0_1, hostOps0_2]
  after_results_simp <;> rfl

/-- No operation before the first call writes argument 4. -/
theorem pre_arg4 (Wv : Valuation τ sig (Elt Ideal)) : StableHlo.after (hostOps0_2 (F := Ideal)) (StableHlo.after (hostOps0_1 (F := Ideal)) (StableHlo.after (hostOps0 (F := Ideal)) Wv)) (Proc.devRef .tc main_arg4) = Wv (Proc.devRef .tc main_arg4) := by
  dsimp only [hostOps0, hostOps0_1, hostOps0_2]
  after_results_simp <;> rfl

/-- No operation before the first call writes argument 5. -/
theorem pre_arg5 (Wv : Valuation τ sig (Elt Ideal)) : StableHlo.after (hostOps0_2 (F := Ideal)) (StableHlo.after (hostOps0_1 (F := Ideal)) (StableHlo.after (hostOps0 (F := Ideal)) Wv)) (Proc.devRef .tc main_arg5) = Wv (Proc.devRef .tc main_arg5) := by
  dsimp only [hostOps0, hostOps0_1, hostOps0_2]
  after_results_simp <;> rfl

/-! ## Between the first and the second call -/

/-- One aggregation step on the first call's output. -/
theorem mid_aggregate (Wv : Valuation τ sig (Elt Ideal)) :
    StableHlo.after (hostOps1 (F := Ideal)) Wv (Proc.devRef .tc main_v43)
      = aggregate128 (F := Ideal) (Wv (Proc.devRef .tc main_v3)) (Wv (Proc.devRef .tc main_v6)) (Wv (Proc.devRef .tc main_v29)) (Wv (Proc.devRef .tc main_v30)) := by
  dsimp only [hostOps1]
  after_results_simp
  unfold aggregate128 wrapped
  rfl

/-- The bias b1 as a row: the reshape is the broadcast along a new leading axis. -/
theorem mid_bias (Wv : Valuation τ sig (Elt Ideal)) :
    StableHlo.after (hostOps1 (F := Ideal)) Wv (Proc.devRef .tc main_v44)
      = broadcastInDim Cert.ReferenceIdeal.S1x128 ![1] Cert.ReferenceIdeal.Gen.bcast_S128_S1x128_1 (Wv (Proc.devRef .tc main_arg3)) := by
  dsimp only [hostOps1]
  after_results_simp
  exact Cert.Lib.DenseLayer.addUnit_eq_bcast (by decide) _ _ _

/-- The edges' start nodes are not written between the first two calls. -/
theorem mid_src (Wv : Valuation τ sig (Elt Ideal)) : StableHlo.after (hostOps1 (F := Ideal)) Wv (Proc.devRef .tc main_v3) = Wv (Proc.devRef .tc main_v3) := by
  dsimp only [hostOps1]
  after_results_simp <;> rfl

/-- The edges' end nodes are not written between the first two calls. -/
theorem mid_dst (Wv : Valuation τ sig (Elt Ideal)) : StableHlo.after (hostOps1 (F := Ideal)) Wv (Proc.devRef .tc main_v6) = Wv (Proc.devRef .tc main_v6) := by
  dsimp only [hostOps1]
  after_results_simp <;> rfl

/-- The edges' coefficients are not written between the first two calls. -/
theorem mid_coef (Wv : Valuation τ sig (Elt Ideal)) : StableHlo.after (hostOps1 (F := Ideal)) Wv (Proc.devRef .tc main_v29) = Wv (Proc.devRef .tc main_v29) := by
  dsimp only [hostOps1]
  after_results_simp <;> rfl

/-- Argument 4 are not written between the first two calls. -/
theorem mid_arg4 (Wv : Valuation τ sig (Elt Ideal)) : StableHlo.after (hostOps1 (F := Ideal)) Wv (Proc.devRef .tc main_arg4) = Wv (Proc.devRef .tc main_arg4) := by
  dsimp only [hostOps1]
  after_results_simp <;> rfl

/-- Argument 5 are not written between the first two calls. -/
theorem mid_arg5 (Wv : Valuation τ sig (Elt Ideal)) : StableHlo.after (hostOps1 (F := Ideal)) Wv (Proc.devRef .tc main_arg5) = Wv (Proc.devRef .tc main_arg5) := by
  dsimp only [hostOps1]
  after_results_simp <;> rfl

/-! ## Between the second and the third call -/

/-- One aggregation step on the second call's output. -/
theorem late_aggregate (Wv : Valuation τ sig (Elt Ideal)) :
    StableHlo.after (hostOps2 (F := Ideal)) Wv (Proc.devRef .tc main_v58)
      = aggregate64 (F := Ideal) (Wv (Proc.devRef .tc main_v3)) (Wv (Proc.devRef .tc main_v6)) (Wv (Proc.devRef .tc main_v29)) (Wv (Proc.devRef .tc main_v45)) := by
  dsimp only [hostOps2]
  after_results_simp
  unfold aggregate64 wrapped
  rfl

/-- The bias b2 as a row. -/
theorem late_bias (Wv : Valuation τ sig (Elt Ideal)) :
    StableHlo.after (hostOps2 (F := Ideal)) Wv (Proc.devRef .tc main_v59)
      = broadcastInDim Cert.ReferenceIdeal.S1x64 ![1] Cert.ReferenceIdeal.Gen.bcast_S64_S1x64_1 (Wv (Proc.devRef .tc main_arg5)) := by
  dsimp only [hostOps2]
  after_results_simp
  exact Cert.Lib.DenseLayer.addUnit_eq_bcast (by decide) _ _ _

end Cert.KernelIdeal.HostStretches

end
-- ==== Proof.KernelValue.lean ====
/-
  The idealized kernel's result array is the network of its arguments.

  The generated frame certificate names the buffers' contents at every boundary of @main: `W0` at the launch, `W3` when
  the first pallas_call is entered (after three stretches of host operations), `W4` when it is left, `W5` and `W6`
  around the second call, `W7` and `W8` around the third. This module walks those boundaries once, forwards, and says
  at each what the buffers still needed hold, as functions of the six argument arrays as launched:

    at W3  the edges' start and end nodes and coefficients, and the arguments;
    at W4  besides, the first call's output: x · W1;
    at W5  one aggregation step on it, and the bias b1 as a row;
    at W6  the second call's output: tanh (that + b1) · W2;
    at W7  one aggregation step on it, and the bias b2 as a row;
    at W8  the third call's output, the result: that + b2 — the network.

  A host stretch is read by its lemma of `HostStretches` at the boundary's contents, a call by its value lemma at the
  contents it is entered with, and a buffer a call does not own is as the call found it.
-/
import proofs.«106641_j369367188152_1_alg».proof.Proof.Gen.KernelIdeal.Frame
import proofs.«106641_j369367188152_1_alg».proof.Proof.FirstProduct
import proofs.«106641_j369367188152_1_alg».proof.Proof.HiddenLayer
import proofs.«106641_j369367188152_1_alg».proof.Proof.OutputBias
import proofs.«106641_j369367188152_1_alg».proof.Proof.HostStretches
import proofs.«106641_j369367188152_1_alg».proof.Proof.GraphConv
import proofs.«106641_j369367188152_1_alg».proof.Proof.LibPlainRecord

set_option maxRecDepth 16384

noncomputable section

namespace Cert.KernelIdeal.NetworkValue

open Cert.KernelIdeal Cert.KernelIdeal.Gen Cert.GraphConv Cert.Lib.DenseLayer Cert.KernelIdeal.HostStretches
open Idealize.ShloMosaic Idealize.ShloMosaic.TcCoe Idealize.SL.Sem

variable (m : (ℓ : Loc nD τ sig) → Buf (Elt Ideal) ℓ) (ρ : Dev nD → PrngReg) (c : Dev nD)

/-- The reference's two product records have the plain dimension numbers. -/
theorem plain_first : Plain Cert.ReferenceIdeal.dot_S50000x256_S256x128_S50000x128_1_0_0_1_n_n := Plain.of_fields _ rfl rfl rfl rfl rfl rfl
theorem plain_second : Plain Cert.ReferenceIdeal.dot_S50000x128_S128x64_S50000x64_1_0_0_1_n_n := Plain.of_fields _ rfl rfl rfl rfl rfl rfl

/-! ## When the first call is entered -/

theorem W3_src : W3 m ρ c (Proc.devRef .tc main_v3) = (sources (F := Ideal) (m ((c : Thread nD τ).loc main_arg1))) := pre_sources (W0 m ρ c)
theorem W3_dst : W3 m ρ c (Proc.devRef .tc main_v6) = (targets (F := Ideal) (m ((c : Thread nD τ).loc main_arg1))) := pre_targets (W0 m ρ c)
theorem W3_coef : W3 m ρ c (Proc.devRef .tc main_v29) = (coefficients (F := Ideal) (m ((c : Thread nD τ).loc main_arg1))) := pre_coefficients (W0 m ρ c)
theorem W3_arg0 : W3 m ρ c (Proc.devRef .tc main_arg0) = (m ((c : Thread nD τ).loc main_arg0)) := pre_arg0 (W0 m ρ c)
theorem W3_arg2 : W3 m ρ c (Proc.devRef .tc main_arg2) = (m ((c : Thread nD τ).loc main_arg2)) := pre_arg2 (W0 m ρ c)
theorem W3_arg3 : W3 m ρ c (Proc.devRef .tc main_arg3) = (m ((c : Thread nD τ).loc main_arg3)) := pre_arg3 (W0 m ρ c)
theorem W3_arg4 : W3 m ρ c (Proc.devRef .tc main_arg4) = (m ((c : Thread nD τ).loc main_arg4)) := pre_arg4 (W0 m ρ c)
theorem W3_arg5 : W3 m ρ c (Proc.devRef .tc main_arg5) = (m ((c : Thread nD τ).loc main_arg5)) := pre_arg5 (W0 m ρ c)

/-! ## When the first call is left -/

/-- The first call's output: x · W1. -/
theorem W4_y1 : W4 m ρ c (Proc.devRef .tc main_v30) = (Host.dotGeneral (F := Ideal) (φ₁ := .f32) (φ₂ := .f32) Cert.ReferenceIdeal.dot_S50000x256_S256x128_S50000x128_1_0_0_1_n_n none (m ((c : Thread nD τ).loc main_arg0)) (m ((c : Thread nD τ).loc main_arg2))) :=
  (W4_arr m ρ c 2).trans ((FirstProduct.value (V3 m ρ) plain_first c).trans
    (congrArg₂ (Host.dotGeneral (F := Ideal) (φ₁ := .f32) (φ₂ := .f32) Cert.ReferenceIdeal.dot_S50000x256_S256x128_S50000x128_1_0_0_1_n_n none) (W3_arg0 m ρ c) (W3_arg2 m ρ c)))
theorem W4_src : W4 m ρ c (Proc.devRef .tc main_v3) = (sources (F := Ideal) (m ((c : Thread nD τ).loc main_arg1))) := (W4_of_ne m ρ c main_v3 (by decide)).trans (W3_src m ρ c)
theorem W4_dst : W4 m ρ c (Proc.devRef .tc main_v6) = (targets (F := Ideal) (m ((c : Thread nD τ).loc main_arg1))) := (W4_of_ne m ρ c main_v6 (by decide)).trans (W3_dst m ρ c)
theorem W4_coef : W4 m ρ c (Proc.devRef .tc main_v29) = (coefficients (F := Ideal) (m ((c : Thread nD τ).loc main_arg1))) := (W4_of_ne m ρ c main_v29 (by decide)).trans (W3_coef m ρ c)
theorem W4_arg3 : W4 m ρ c (Proc.devRef .tc main_arg3) = (m ((c : Thread nD τ).loc main_arg3)) := (W4_of_ne m ρ c main_arg3 (by decide)).trans (W3_arg3 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)

/-! ## When the second call is entered -/

/-- One aggregation step on x · W1. -/
theorem W5_a1 : W5 m ρ c (Proc.devRef .tc main_v43) = (aggregate128 (F := Ideal) (sources (F := Ideal) (m ((c : Thread nD τ).loc main_arg1))) (targets (F := Ideal) (m ((c : Thread nD τ).loc main_arg1))) (coefficients (F := Ideal) (m ((c : Thread nD τ).loc main_arg1))) (Host.dotGeneral (F := Ideal) (φ₁ := .f32) (φ₂ := .f32) Cert.ReferenceIdeal.dot_S50000x256_S256x128_S50000x128_1_0_0_1_n_n none (m ((c : Thread nD τ).loc main_arg0)) (m ((c : Thread nD τ).loc main_arg2)))) := by
  refine (mid_aggregate (W4 m ρ c)).trans ?_
  rw [W4_src m ρ c, W4_dst m ρ c, W4_coef m ρ c, W4_y1 m ρ c]
/-- The bias b1 as a row. -/
theorem W5_b1 : W5 m ρ c (Proc.devRef .tc main_v44) = (broadcastInDim Cert.ReferenceIdeal.S1x128 ![1] Cert.ReferenceIdeal.Gen.bcast_S128_S1x128_1 (m ((c : Thread nD τ).loc main_arg3))) :=
  (mid_bias (W4 m ρ c)).trans (congrArg (broadcastInDim Cert.ReferenceIdeal.S1x128 ![1] Cert.ReferenceIdeal.Gen.bcast_S128_S1x128_1) (W4_arg3 m ρ c))
theorem W5_src : W5 m ρ c (Proc.devRef .tc main_v3) = (sources (F := Ideal) (m ((c : Thread nD τ).loc main_arg1))) := (mid_src (W4 m ρ c)).trans (W4_src m ρ c)
theorem W5_dst : W5 m ρ c (Proc.devRef .tc main_v6) = (targets (F := Ideal) (m ((c : Thread nD τ).loc main_arg1))) := (mid_dst (W4 m ρ c)).trans (W4_dst m ρ c)
theorem W5_coef : W5 m ρ c (Proc.devRef .tc main_v29) = (coefficients (F := Ideal) (m ((c : Thread nD τ).loc main_arg1))) := (mid_coef (W4 m ρ c)).trans (W4_coef m ρ c)
theorem W5_arg4 : W5 m ρ c (Proc.devRef .tc main_arg4) = (m ((c : Thread nD τ).loc main_arg4)) := (mid_arg4 (W4 m ρ c)).trans (W4_arg4 m ρ c)
theorem W5_arg5 : W5 m ρ c (Proc.devRef .tc main_arg5) = (m ((c : Thread nD τ).loc main_arg5)) := (mid_arg5 (W4 m ρ c)).trans (W4_arg5 m ρ c)

/-! ## When the second call is left -/

/-- The second call's output: tanh (aggregated + b1) · W2. -/
theorem W6_y2 : W6 m ρ c (Proc.devRef .tc main_v45) = (hiddenLayer (F := Ideal) (aggregate128 (F := Ideal) (sources (F := Ideal) (m ((c : Thread nD τ).loc main_arg1))) (targets (F := Ideal) (m ((c : Thread nD τ).loc main_arg1))) (coefficients (F := Ideal) (m ((c : Thread nD τ).loc main_arg1))) (Host.dotGeneral (F := Ideal) (φ₁ := .f32) (φ₂ := .f32) Cert.ReferenceIdeal.dot_S50000x256_S256x128_S50000x128_1_0_0_1_n_n none (m ((c : Thread nD τ).loc main_arg0)) (m ((c : Thread nD τ).loc main_arg2)))) (m ((c : Thread nD τ).loc main_arg3)) (m ((c : Thread nD τ).loc main_arg4))) := by
  refine (W6_arr m ρ c 3).trans ((HiddenLayer.value (V5 m ρ) plain_second Cert.ReferenceIdeal.Gen.bcast_S1x128_S50000x128_0_1 c).trans ?_)
  unfold hiddenLayer
  rw [show V5 m ρ c main_v43 = _ from W5_a1 m ρ c, show V5 m ρ c main_v44 = _ from W5_b1 m ρ c,
    show V5 m ρ c main_arg4 = _ from W5_arg4 m ρ c]
theorem W6_src : W6 m ρ c (Proc.devRef .tc main_v3) = (sources (F := Ideal) (m ((c : Thread nD τ).loc main_arg1))) := (W6_of_ne m ρ c main_v3 (by decide)).trans (W5_src m ρ c)
theorem W6_dst : W6 m ρ c (Proc.devRef .tc main_v6) = (targets (F := Ideal) (m ((c : Thread nD τ).loc main_arg1))) := (W6_of_ne m ρ c main_v6 (by decide)).trans (W5_dst m ρ c)
theorem W6_coef : W6 m ρ c (Proc.devRef .tc main_v29) = (coefficients (F := Ideal) (m ((c : Thread nD τ).loc main_arg1))) := (W6_of_ne m ρ c main_v29 (by decide)).trans (W5_coef m ρ c)
theorem W6_arg5 : W6 m ρ c (Proc.devRef .tc main_arg5) = (m ((c : Thread nD τ).loc main_arg5)) := (W6_of_ne m ρ c main_arg5 (by decide)).trans (W5_arg5 m ρ c)

/-! ## When the third call is entered -/

/-- One aggregation step on the second call's output. -/
theorem W7_a2 : W7 m ρ c (Proc.devRef .tc main_v58) = (aggregate64 (F := Ideal) (sources (F := Ideal) (m ((c : Thread nD τ).loc main_arg1))) (targets (F := Ideal) (m ((c : Thread nD τ).loc main_arg1))) (coefficients (F := Ideal) (m ((c : Thread nD τ).loc main_arg1))) (hiddenLayer (F := Ideal) (aggregate128 (F := Ideal) (sources (F := Ideal) (m ((c : Thread nD τ).loc main_arg1))) (targets (F := Ideal) (m ((c : Thread nD τ).loc main_arg1))) (coefficients (F := Ideal) (m ((c : Thread nD τ).loc main_arg1))) (Host.dotGeneral (F := Ideal) (φ₁ := .f32) (φ₂ := .f32) Cert.ReferenceIdeal.dot_S50000x256_S256x128_S50000x128_1_0_0_1_n_n none (m ((c : Thread nD τ).loc main_arg0)) (m ((c : Thread nD τ).loc main_arg2)))) (m ((c : Thread nD τ).loc main_arg3)) (m ((c : Thread nD τ).loc main_arg4)))) := by
  refine (late_aggregate (W6 m ρ c)).trans ?_
  rw [W6_src m ρ c, W6_dst m ρ c, W6_coef m ρ c, W6_y2 m ρ c]
/-- The bias b2 as a row. -/
theorem W7_b2 : W7 m ρ c (Proc.devRef .tc main_v59) = (broadcastInDim Cert.ReferenceIdeal.S1x64 ![1] Cert.ReferenceIdeal.Gen.bcast_S64_S1x64_1 (m ((c : Thread nD τ).loc main_arg5))) :=
  (late_bias (W6 m ρ c)).trans (congrArg (broadcastInDim Cert.ReferenceIdeal.S1x64 ![1] Cert.ReferenceIdeal.Gen.bcast_S64_S1x64_1) (W6_arg5 m ρ c))

/-! ## When the third call is left: the result -/

/-- THE RESULT ARRAY: the network of the six arguments as launched. -/
theorem value : W8 m ρ c (Proc.devRef .tc main_v60) = network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ((OutputBias.value (V7 m ρ) Cert.ReferenceIdeal.Gen.bcast_S1x64_S50000x64_0_1 c).trans ?_)
  unfold network
  rw [show V7 m ρ c main_v58 = _ from W7_a2 m ρ c, show V7 m ρ c main_v59 = _ from W7_b2 m ρ c]

end Cert.KernelIdeal.NetworkValue

end
-- ==== Proof.RefValue.lean ====
/-
  The reference's result is the network of its arguments.

  The reference program's run ends with its result array at the composed term of its 114 host operations. That term is
  the two-layer graph convolution `Cert.GraphConv.network` of the six argument arrays as launched: unfolding the
  named pieces of the network gives the composed term back, operation for operation (the reference computes the
  edges' coefficients once per layer, and both times they are the same term of the edge list).
-/
import proofs.«106641_j369367188152_1_alg».proof.Proof.RefRun
import proofs.«106641_j369367188152_1_alg».proof.Proof.GraphConv

set_option maxRecDepth 16384

noncomputable section

namespace Cert.ReferenceIdeal.RefValue

open Cert.ReferenceIdeal Cert.ReferenceIdeal.Gen Cert.ReferenceIdeal.ValueP Cert.GraphConv
open Idealize.ShloMosaic Idealize.ShloMosaic.TcCoe Idealize.SL.Sem

variable {F : FTy → Type} [FloatOps F]

/-- The run's result term is the network of the launch contents of the six arguments. -/
theorem result_eq (m : (ℓ : Loc nD τ sig) → Buf (Elt F) ℓ) (c : Dev nD) :
    res_main_v87 m c = network (F := F) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold res_main_v87 network hiddenLayer aggregate64 aggregate128 coefficients weight degree wrapped sources targets
  with_reducible rfl

end Cert.ReferenceIdeal.RefValue

end
-- ==== Proof.lean ====
/-
  A two-layer graph convolution on 50000 nodes and 800000 edges: three pallas_calls among host operations, against jnp.

  Both programs append one self loop per node to the edge list, count each node's incoming edges, weigh a node by the
  reciprocal square root of that count (0 where the count is not positive) and an edge by the product of its end nodes'
  weights, and compute

      out = aggregate (tanh (aggregate (x · W1) + b1) · W2) + b2,

  where `aggregate Y` adds, for every edge, the source node's row of Y scaled by the edge's weight into the target
  node's row. The reference does all of it on the host. The kernel does the edge arithmetic and the two aggregations on
  the host with the very same operations, and the three dense pieces in pallas_calls over 25 blocks of 2000 rows:
  x · W1 (operands narrowed to bf16, a matrix-unit product into a zero accumulator), tanh (· + b1) · W2 (the same
  kind of product after the bias row and tanh), and · + b2. At the extended reals a change of float format is the identity
  and a product into a zero accumulator is the plain sum of products, each block of rows of a dense piece is the same rows
  of the whole-matrix operation, and the blocks tile the rows: so each call's output array is the host's operation of
  the whole arrays (Proof/FirstProduct, Proof/HiddenLayer, Proof/OutputBias), the kernel's result is
  `Cert.GraphConv.network` of the six arguments (Proof/KernelValue, over the run of Proof/KernelRun), and so is the
  reference's (Proof/RefValue, over the run of Proof/RefRun). No step uses that the inputs are finite: the two sides are
  the same sums of the same products, and the host operations between the calls are never opened.
  The idealization rewrote no operation, so `preserves` has nothing to state.
-/
import proofs.«106641_j369367188152_1_alg».proof.Defs
import proofs.«106641_j369367188152_1_alg».proof.Proof.Gen.Kernel
import proofs.«106641_j369367188152_1_alg».proof.Proof.Gen.Kernel.Frame
import proofs.«106641_j369367188152_1_alg».proof.Proof.Gen.KernelIdeal
import proofs.«106641_j369367188152_1_alg».proof.Proof.Gen.KernelIdeal.Frame
import proofs.«106641_j369367188152_1_alg».proof.Proof.Gen.ReferenceIdeal
import proofs.«106641_j369367188152_1_alg».proof.Proof.Gen.Pre_finite_inputs
import proofs.«106641_j369367188152_1_alg».proof.Proof.KernelRun
import proofs.«106641_j369367188152_1_alg».proof.Proof.KernelValue
import proofs.«106641_j369367188152_1_alg».proof.Proof.RefRun
import proofs.«106641_j369367188152_1_alg».proof.Proof.RefValue
import Idealize.ShloMosaic.Adequacy
import Idealize.ShloMosaic.Init

noncomputable section

namespace Cert.Proof

open Idealize.ShloMosaic Idealize.SL.Sem

/-- The word-level kernel runs and leaves its arguments as launched: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the six arguments, both idealized programs end with the network of those arguments
    in their result arrays. -/
theorem algebraic : Cert.algebraic_KernelIdeal_ReferenceIdeal := by
  intro m ρ m' ρ' _ hagree
  refine ⟨fun c => Cert.GraphConv.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.NetworkValue.value m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq m' c, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
